-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x96x96 : Shape := ⟨4, ![8, 256, 96, 96]⟩
abbrev S8x32x9x96x96 : Shape := ⟨5, ![8, 32, 9, 96, 96]⟩
abbrev S_ : Shape := ⟨0, ![]⟩

class Facts : Prop where
  bcast_S_S8x256x96x96 : S_.BroadcastsInDim S8x256x96x96 (![] : Fin 0 → Fin S8x256x96x96.rank)
  reducesTo_S8x256x96x96_S_d0_1_2_3 : S8x256x96x96.ReducesTo [0, 1, 2, 3] S_
  h_S_ : 0 < S_.numel
  bcast_S_S8x32x9x96x96 : S_.BroadcastsInDim S8x32x9x96x96 (![] : Fin 0 → Fin S8x32x9x96x96.rank)
  reducesTo_S8x32x9x96x96_S_d0_1_2_3_4 : S8x32x9x96x96.ReducesTo [0, 1, 2, 3, 4] S_

variable [Facts]

def fn {F : FTy → Type} [FloatOps F] (main_arg0 : FVec F S8x256x96x96 .f32) (main_arg1 : FVec F S8x32x9x96x96 .f32) : IVec S_ 1 :=
  let main_v0 : FVec F S8x256x96x96 .f32 := Host.absf main_arg0
  let main_cst : FVec F S_ .f32 := constant S_ .f32 0x7F800000#32
  let main_v1 : FVec F S8x256x96x96 .f32 := broadcastInDim S8x256x96x96 ![] bcast_S_S8x256x96x96 main_cst
  let main_v2 : IVec S8x256x96x96 1 := cmpf .olt main_v0 main_v1
  let main_c : IVec S_ 1 := constantI S_ 1 1#1
  let main_v3 : IVec S_ 1 := (fun x v => Host.reduce IntOp.andi x v reducesTo_S8x256x96x96_S_d0_1_2_3 h_S_) main_v2 main_c
  let main_v4 : FVec F S8x32x9x96x96 .f32 := Host.absf main_arg1
  let main_cst_0 : FVec F S_ .f32 := constant S_ .f32 0x7F800000#32
  let main_v5 : FVec F S8x32x9x96x96 .f32 := broadcastInDim S8x32x9x96x96 ![] bcast_S_S8x32x9x96x96 main_cst_0
  let main_v6 : IVec S8x32x9x96x96 1 := cmpf .olt main_v4 main_v5
  let main_c_1 : IVec S_ 1 := constantI S_ 1 1#1
  let main_v7 : IVec S_ 1 := (fun x v => Host.reduce IntOp.andi x v reducesTo_S8x32x9x96x96_S_d0_1_2_3_4 h_S_) main_v6 main_c_1
  let main_v8 : IVec S_ 1 := andi main_v3 main_v7
  main_v8
-- ==== Kernel.lean ====
abbrev S8x256x96x96 : Shape := ⟨4, ![8, 256, 96, 96]⟩
abbrev S8x32x9x96x96 : Shape := ⟨5, ![8, 32, 9, 96, 96]⟩
abbrev S_ : Shape := ⟨0, ![]⟩
abbrev S8x256x98x98 : Shape := ⟨4, ![8, 256, 98, 98]⟩
abbrev S1x32x98x98 : Shape := ⟨4, ![1, 32, 98, 98]⟩
abbrev S1x32x9x96x96 : Shape := ⟨5, ![1, 32, 9, 96, 96]⟩
abbrev S1x32x96x96 : Shape := ⟨4, ![1, 32, 96, 96]⟩
abbrev S32x98x98 : Shape := ⟨3, ![32, 98, 98]⟩
abbrev S32x96x96 : Shape := ⟨3, ![32, 96, 96]⟩
abbrev S1x32x1x96x96 : Shape := ⟨5, ![1, 32, 1, 96, 96]⟩

abbrev nBuf : Space → Nat
  | .hbm => 6
  | .vmem => 6
  | .smem => 0
  | _ => 0

abbrev bufTy : (tb : Table) → Fin (tcTables nBuf tb) → BufTy
  | .hbm, ⟨0, _⟩ => ⟨S8x256x96x96, .f32⟩
  | .hbm, ⟨1, _⟩ => ⟨S8x32x9x96x96, .f32⟩
  | .hbm, ⟨2, _⟩ => ⟨S_, .i32⟩
  | .hbm, ⟨3, _⟩ => ⟨S_, .f32⟩
  | .hbm, ⟨4, _⟩ => ⟨S8x256x98x98, .f32⟩
  | .hbm, ⟨5, _⟩ => ⟨S8x256x96x96, .f32⟩
  | .local _ .vmem, ⟨0, _⟩ => ⟨S1x32x98x98, .f32⟩
  | .local _ .vmem, ⟨1, _⟩ => ⟨S1x32x98x98, .f32⟩
  | .local _ .vmem, ⟨2, _⟩ => ⟨S1x32x9x96x96, .f32⟩
  | .local _ .vmem, ⟨3, _⟩ => ⟨S1x32x9x96x96, .f32⟩
  | .local _ .vmem, ⟨4, _⟩ => ⟨S1x32x96x96, .f32⟩
  | .local _ .vmem, ⟨5, _⟩ => ⟨S1x32x96x96, .f32⟩
  | _, _ => ⟨S8x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x98x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x9x96x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x256x96x96_S8x256x98x98_000_000_110_110 : S8x256x96x96.Pads (![0, 0, 1, 1] : Fin 4 → Nat) ![0, 0, 1, 1] ![0, 0, 0, 0] S8x256x98x98
  h_S_ : 0 < S_.numel
  inb_S1x32x98x98_S1x32x98x98_0_0_0_0 : ∀ a, (![0, 0, 0, 0] : Fin 4 → Nat) a + S1x32x98x98.size a ≤ S1x32x98x98.size a
  h_S1x32x98x98 : 0 < S1x32x98x98.numel
  shapeCasts_S1x32x98x98_S32x98x98 : S1x32x98x98.ShapeCasts S32x98x98
  slices_S32x98x98_o0_0_0_S32x96x96 : S32x98x98.Slices ![0, 0, 0] S32x96x96
  inb_S1x32x9x96x96_S1x32x1x96x96_0_0_0_0_0 : ∀ a, (![0, 0, 0, 0, 0] : Fin 5 → Nat) a + S1x32x1x96x96.size a ≤ S1x32x9x96x96.size a
  h_S1x32x1x96x96 : 0 < S1x32x1x96x96.numel
  shapeCasts_S1x32x1x96x96_S32x96x96 : S1x32x1x96x96.ShapeCasts S32x96x96
  slices_S32x98x98_o0_0_1_S32x96x96 : S32x98x98.Slices ![0, 0, 1] S32x96x96
  inb_S1x32x9x96x96_S1x32x1x96x96_0_0_1_0_0 : ∀ a, (![0, 0, 1, 0, 0] : Fin 5 → Nat) a + S1x32x1x96x96.size a ≤ S1x32x9x96x96.size a
  slices_S32x98x98_o0_0_2_S32x96x96 : S32x98x98.Slices ![0, 0, 2] S32x96x96
  inb_S1x32x9x96x96_S1x32x1x96x96_0_0_2_0_0 : ∀ a, (![0, 0, 2, 0, 0] : Fin 5 → Nat) a + S1x32x1x96x96.size a ≤ S1x32x9x96x96.size a
  slices_S32x98x98_o0_1_0_S32x96x96 : S32x98x98.Slices ![0, 1, 0] S32x96x96
  inb_S1x32x9x96x96_S1x32x1x96x96_0_0_3_0_0 : ∀ a, (![0, 0, 3, 0, 0] : Fin 5 → Nat) a + S1x32x1x96x96.size a ≤ S1x32x9x96x96.size a
  slices_S32x98x98_o0_1_1_S32x96x96 : S32x98x98.Slices ![0, 1, 1] S32x96x96
  inb_S1x32x9x96x96_S1x32x1x96x96_0_0_4_0_0 : ∀ a, (![0, 0, 4, 0, 0] : Fin 5 → Nat) a + S1x32x1x96x96.size a ≤ S1x32x9x96x96.size a
  slices_S32x98x98_o0_1_2_S32x96x96 : S32x98x98.Slices ![0, 1, 2] S32x96x96
  inb_S1x32x9x96x96_S1x32x1x96x96_0_0_5_0_0 : ∀ a, (![0, 0, 5, 0, 0] : Fin 5 → Nat) a + S1x32x1x96x96.size a ≤ S1x32x9x96x96.size a
  slices_S32x98x98_o0_2_0_S32x96x96 : S32x98x98.Slices ![0, 2, 0] S32x96x96
  inb_S1x32x9x96x96_S1x32x1x96x96_0_0_6_0_0 : ∀ a, (![0, 0, 6, 0, 0] : Fin 5 → Nat) a + S1x32x1x96x96.size a ≤ S1x32x9x96x96.size a
  slices_S32x98x98_o0_2_1_S32x96x96 : S32x98x98.Slices ![0, 2, 1] S32x96x96
  inb_S1x32x9x96x96_S1x32x1x96x96_0_0_7_0_0 : ∀ a, (![0, 0, 7, 0, 0] : Fin 5 → Nat) a + S1x32x1x96x96.size a ≤ S1x32x9x96x96.size a
  slices_S32x98x98_o0_2_2_S32x96x96 : S32x98x98.Slices ![0, 2, 2] S32x96x96
  inb_S1x32x9x96x96_S1x32x1x96x96_0_0_8_0_0 : ∀ a, (![0, 0, 8, 0, 0] : Fin 5 → Nat) a + S1x32x1x96x96.size a ≤ S1x32x9x96x96.size a
  inb_S1x32x96x96_S1x32x96x96_0_0_0_0 : ∀ a, (![0, 0, 0, 0] : Fin 4 → Nat) a + S1x32x96x96.size a ≤ S1x32x96x96.size a
  h_S1x32x96x96 : 0 < S1x32x96x96.numel
  shapeCasts_S1x32x96x96_S32x96x96 : S1x32x96x96.ShapeCasts S32x96x96
  shapeCasts_S32x96x96_S1x32x96x96 : S32x96x96.ShapeCasts S1x32x96x96
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x98x98.size a ≤ S8x256x98x98.size a
  hwx0_0 : ∀ i : grid0.Coords, EltTy.bits .f32 = 32 ∨ (Rect.block (s := S8x256x98x98) S1x32x98x98.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x9x96x96.size a ≤ S8x32x9x96x96.size a
  hwx0_1 : ∀ i : grid0.Coords, EltTy.bits .f32 = 32 ∨ (Rect.block (s := S8x32x9x96x96) S1x32x9x96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x96x96.size a ≤ S8x256x96x96.size a
  hwx0_2 : ∀ i : grid0.Coords, EltTy.bits .f32 = 32 ∨ (Rect.block (s := S8x256x96x96) S1x32x96x96.size (cc0_transform_2 i) (hinb0_2 i)).WholeWords (EltTy.packing .f32)

variable [Facts₀]

abbrev win0_0 : Pipeline.Window sig grid0 :=
  Pipeline.Window.ofSpec (Memref.whole main_v0) S1x32x98x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x9x96x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x96x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x96x96 : Shape := ⟨4, ![8, 256, 96, 96]⟩
abbrev S8x32x9x96x96 : Shape := ⟨5, ![8, 32, 9, 96, 96]⟩
abbrev S_ : Shape := ⟨0, ![]⟩
abbrev S8x256x98x98 : Shape := ⟨4, ![8, 256, 98, 98]⟩
abbrev S8x8x32x96x96 : Shape := ⟨5, ![8, 8, 32, 96, 96]⟩
abbrev S8x32x1x96x96 : Shape := ⟨5, ![8, 32, 1, 96, 96]⟩
abbrev S8x32x96x96 : Shape := ⟨4, ![8, 32, 96, 96]⟩
abbrev S8x1x32x96x96 : Shape := ⟨5, ![8, 1, 32, 96, 96]⟩

abbrev nBuf : Space → Nat
  | .hbm => 80
  | .vmem => 0
  | .smem => 0
  | _ => 0

abbrev bufTy : (tb : Table) → Fin (tcTables nBuf tb) → BufTy
  | .hbm, ⟨0, _⟩ => ⟨S8x256x96x96, .f32⟩
  | .hbm, ⟨1, _⟩ => ⟨S8x32x9x96x96, .f32⟩
  | .hbm, ⟨2, _⟩ => ⟨S_, .i32⟩
  | .hbm, ⟨3, _⟩ => ⟨S_, .f32⟩
  | .hbm, ⟨4, _⟩ => ⟨S8x256x98x98, .f32⟩
  | .hbm, ⟨5, _⟩ => ⟨S_, .f32⟩
  | .hbm, ⟨6, _⟩ => ⟨S8x8x32x96x96, .f32⟩
  | .hbm, ⟨7, _⟩ => ⟨S8x256x96x96, .f32⟩
  | .hbm, ⟨8, _⟩ => ⟨S8x8x32x96x96, .f32⟩
  | .hbm, ⟨9, _⟩ => ⟨S8x32x1x96x96, .f32⟩
  | .hbm, ⟨10, _⟩ => ⟨S8x32x96x96, .f32⟩
  | .hbm, ⟨11, _⟩ => ⟨S8x1x32x96x96, .f32⟩
  | .hbm, ⟨12, _⟩ => ⟨S8x8x32x96x96, .f32⟩
  | .hbm, ⟨13, _⟩ => ⟨S8x8x32x96x96, .f32⟩
  | .hbm, ⟨14, _⟩ => ⟨S8x8x32x96x96, .f32⟩
  | .hbm, ⟨15, _⟩ => ⟨S8x256x96x96, .f32⟩
  | .hbm, ⟨16, _⟩ => ⟨S8x8x32x96x96, .f32⟩
  | .hbm, ⟨17, _⟩ => ⟨S8x32x1x96x96, .f32⟩
  | .hbm, ⟨18, _⟩ => ⟨S8x32x96x96, .f32⟩
  | .hbm, ⟨19, _⟩ => ⟨S8x1x32x96x96, .f32⟩
  | .hbm, ⟨20, _⟩ => ⟨S8x8x32x96x96, .f32⟩
  | .hbm, ⟨21, _⟩ => ⟨S8x8x32x96x96, .f32⟩
  | .hbm, ⟨22, _⟩ => ⟨S8x8x32x96x96, .f32⟩
  | .hbm, ⟨23, _⟩ => ⟨S8x256x96x96, .f32⟩
  | .hbm, ⟨24, _⟩ => ⟨S8x8x32x96x96, .f32⟩
  | .hbm, ⟨25, _⟩ => ⟨S8x32x1x96x96, .f32⟩
  | .hbm, ⟨26, _⟩ => ⟨S8x32x96x96, .f32⟩
  | .hbm, ⟨27, _⟩ => ⟨S8x1x32x96x96, .f32⟩
  | .hbm, ⟨28, _⟩ => ⟨S8x8x32x96x96, .f32⟩
  | .hbm, ⟨29, _⟩ => ⟨S8x8x32x96x96, .f32⟩
  | .hbm, ⟨30, _⟩ => ⟨S8x8x32x96x96, .f32⟩
  | .hbm, ⟨31, _⟩ => ⟨S8x256x96x96, .f32⟩
  | .hbm, ⟨32, _⟩ => ⟨S8x8x32x96x96, .f32⟩
  | .hbm, ⟨33, _⟩ => ⟨S8x32x1x96x96, .f32⟩
  | .hbm, ⟨34, _⟩ => ⟨S8x32x96x96, .f32⟩
  | .hbm, ⟨35, _⟩ => ⟨S8x1x32x96x96, .f32⟩
  | .hbm, ⟨36, _⟩ => ⟨S8x8x32x96x96, .f32⟩
  | .hbm, ⟨37, _⟩ => ⟨S8x8x32x96x96, .f32⟩
  | .hbm, ⟨38, _⟩ => ⟨S8x8x32x96x96, .f32⟩
  | .hbm, ⟨39, _⟩ => ⟨S8x256x96x96, .f32⟩
  | .hbm, ⟨40, _⟩ => ⟨S8x8x32x96x96, .f32⟩
  | .hbm, ⟨41, _⟩ => ⟨S8x32x1x96x96, .f32⟩
  | .hbm, ⟨42, _⟩ => ⟨S8x32x96x96, .f32⟩
  | .hbm, ⟨43, _⟩ => ⟨S8x1x32x96x96, .f32⟩
  | .hbm, ⟨44, _⟩ => ⟨S8x8x32x96x96, .f32⟩
  | .hbm, ⟨45, _⟩ => ⟨S8x8x32x96x96, .f32⟩
  | .hbm, ⟨46, _⟩ => ⟨S8x8x32x96x96, .f32⟩
  | .hbm, ⟨47, _⟩ => ⟨S8x256x96x96, .f32⟩
  | .hbm, ⟨48, _⟩ => ⟨S8x8x32x96x96, .f32⟩
  | .hbm, ⟨49, _⟩ => ⟨S8x32x1x96x96, .f32⟩
  | .hbm, ⟨50, _⟩ => ⟨S8x32x96x96, .f32⟩
  | .hbm, ⟨51, _⟩ => ⟨S8x1x32x96x96, .f32⟩
  | .hbm, ⟨52, _⟩ => ⟨S8x8x32x96x96, .f32⟩
  | .hbm, ⟨53, _⟩ => ⟨S8x8x32x96x96, .f32⟩
  | .hbm, ⟨54, _⟩ => ⟨S8x8x32x96x96, .f32⟩
  | .hbm, ⟨55, _⟩ => ⟨S8x256x96x96, .f32⟩
  | .hbm, ⟨56, _⟩ => ⟨S8x8x32x96x96, .f32⟩
  | .hbm, ⟨57, _⟩ => ⟨S8x32x1x96x96, .f32⟩
  | .hbm, ⟨58, _⟩ => ⟨S8x32x96x96, .f32⟩
  | .hbm, ⟨59, _⟩ => ⟨S8x1x32x96x96, .f32⟩
  | .hbm, ⟨60, _⟩ => ⟨S8x8x32x96x96, .f32⟩
  | .hbm, ⟨61, _⟩ => ⟨S8x8x32x96x96, .f32⟩
  | .hbm, ⟨62, _⟩ => ⟨S8x8x32x96x96, .f32⟩
  | .hbm, ⟨63, _⟩ => ⟨S8x256x96x96, .f32⟩
  | .hbm, ⟨64, _⟩ => ⟨S8x8x32x96x96, .f32⟩
  | .hbm, ⟨65, _⟩ => ⟨S8x32x1x96x96, .f32⟩
  | .hbm, ⟨66, _⟩ => ⟨S8x32x96x96, .f32⟩
  | .hbm, ⟨67, _⟩ => ⟨S8x1x32x96x96, .f32⟩
  | .hbm, ⟨68, _⟩ => ⟨S8x8x32x96x96, .f32⟩
  | .hbm, ⟨69, _⟩ => ⟨S8x8x32x96x96, .f32⟩
  | .hbm, ⟨70, _⟩ => ⟨S8x8x32x96x96, .f32⟩
  | .hbm, ⟨71, _⟩ => ⟨S8x256x96x96, .f32⟩
  | .hbm, ⟨72, _⟩ => ⟨S8x8x32x96x96, .f32⟩
  | .hbm, ⟨73, _⟩ => ⟨S8x32x1x96x96, .f32⟩
  | .hbm, ⟨74, _⟩ => ⟨S8x32x96x96, .f32⟩
  | .hbm, ⟨75, _⟩ => ⟨S8x1x32x96x96, .f32⟩
  | .hbm, ⟨76, _⟩ => ⟨S8x8x32x96x96, .f32⟩
  | .hbm, ⟨77, _⟩ => ⟨S8x8x32x96x96, .f32⟩
  | .hbm, ⟨78, _⟩ => ⟨S8x8x32x96x96, .f32⟩
  | .hbm, ⟨79, _⟩ => ⟨S8x256x96x96, .f32⟩
  | _, _ => ⟨S8x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩

abbrev nD : Nat := 1
abbrev τ : Topo := Topo.v7x

variable {F : FTy → Type} [FloatOps F]

class Facts₀ : Prop where
  pads_S8x256x96x96_S8x256x98x98_000_000_110_110 : S8x256x96x96.Pads (![0, 0, 1, 1] : Fin 4 → Nat) ![0, 0, 1, 1] ![0, 0, 0, 0] S8x256x98x98
  h_S_ : 0 < S_.numel
  bcast_S_S8x8x32x96x96 : S_.BroadcastsInDim S8x8x32x96x96 (![] : Fin 0 → Fin S8x8x32x96x96.rank)
  slices_S8x256x98x98_S8x256x96x96_0_0_0_0 : S8x256x98x98.Slices ![0, 0, 0, 0] S8x256x96x96
  shapeCasts_S8x256x96x96_S8x8x32x96x96 : S8x256x96x96.ShapeCasts S8x8x32x96x96
  slices_S8x32x9x96x96_S8x32x1x96x96_0_0_0_0_0 : S8x32x9x96x96.Slices ![0, 0, 0, 0, 0] S8x32x1x96x96
  shapeCasts_S8x32x1x96x96_S8x32x96x96 : S8x32x1x96x96.ShapeCasts S8x32x96x96
  bcast_S8x32x96x96_S8x1x32x96x96_0_2_3_4 : S8x32x96x96.BroadcastsInDim S8x1x32x96x96 (![0, 2, 3, 4] : Fin 4 → Fin S8x1x32x96x96.rank)
  bcast_S8x1x32x96x96_S8x8x32x96x96_0_1_2_3_4 : S8x1x32x96x96.BroadcastsInDim S8x8x32x96x96 (![0, 1, 2, 3, 4] : Fin 5 → Fin S8x8x32x96x96.rank)
  slices_S8x256x98x98_S8x256x96x96_0_0_0_1 : S8x256x98x98.Slices ![0, 0, 0, 1] S8x256x96x96
  slices_S8x32x9x96x96_S8x32x1x96x96_0_0_1_0_0 : S8x32x9x96x96.Slices ![0, 0, 1, 0, 0] S8x32x1x96x96
  slices_S8x256x98x98_S8x256x96x96_0_0_0_2 : S8x256x98x98.Slices ![0, 0, 0, 2] S8x256x96x96
  slices_S8x32x9x96x96_S8x32x1x96x96_0_0_2_0_0 : S8x32x9x96x96.Slices ![0, 0, 2, 0, 0] S8x32x1x96x96
  slices_S8x256x98x98_S8x256x96x96_0_0_1_0 : S8x256x98x98.Slices ![0, 0, 1, 0] S8x256x96x96
  slices_S8x32x9x96x96_S8x32x1x96x96_0_0_3_0_0 : S8x32x9x96x96.Slices ![0, 0, 3, 0, 0] S8x32x1x96x96
  slices_S8x256x98x98_S8x256x96x96_0_0_1_1 : S8x256x98x98.Slices ![0, 0, 1, 1] S8x256x96x96
  slices_S8x32x9x96x96_S8x32x1x96x96_0_0_4_0_0 : S8x32x9x96x96.Slices ![0, 0, 4, 0, 0] S8x32x1x96x96
  slices_S8x256x98x98_S8x256x96x96_0_0_1_2 : S8x256x98x98.Slices ![0, 0, 1, 2] S8x256x96x96
  slices_S8x32x9x96x96_S8x32x1x96x96_0_0_5_0_0 : S8x32x9x96x96.Slices ![0, 0, 5, 0, 0] S8x32x1x96x96
  slices_S8x256x98x98_S8x256x96x96_0_0_2_0 : S8x256x98x98.Slices ![0, 0, 2, 0] S8x256x96x96
  slices_S8x32x9x96x96_S8x32x1x96x96_0_0_6_0_0 : S8x32x9x96x96.Slices ![0, 0, 6, 0, 0] S8x32x1x96x96
  slices_S8x256x98x98_S8x256x96x96_0_0_2_1 : S8x256x98x98.Slices ![0, 0, 2, 1] S8x256x96x96
  slices_S8x32x9x96x96_S8x32x1x96x96_0_0_7_0_0 : S8x32x9x96x96.Slices ![0, 0, 7, 0, 0] S8x32x1x96x96
  slices_S8x256x98x98_S8x256x96x96_0_0_2_2 : S8x256x98x98.Slices ![0, 0, 2, 2] S8x256x96x96
  slices_S8x32x9x96x96_S8x32x1x96x96_0_0_8_0_0 : S8x32x9x96x96.Slices ![0, 0, 8, 0, 0] S8x32x1x96x96
  shapeCasts_S8x8x32x96x96_S8x256x96x96 : S8x8x32x96x96.ShapeCasts S8x256x96x96

variable [Facts₀]

class Facts : Prop extends Facts₀ where

variable [Facts]
-- ==== Proof.Taps.lean ====
/-
  The function both programs compute, stated once over the extended reals' carrier `F` (any float instance).

  `xp` is the input zero-padded by one row and one column on each side of its last two axes ([8, 256, 98, 98]);
  `wt` is the per-position weight array [8, 32, 9, 96, 96]. The result at (n, ch, h, w) is the sum, over the nine taps
  k = 3·a + b of a 3×3 window, of
      xp[n, ch, h + a, w + b] · wt[n, ch mod 32, k, h, w],
  accumulated from zero in the order k = 0, 1, …, 8 (a left fold: ((0 + p₀) + p₁) + … + p₈). The channel `ch` of the
  input belongs to group `ch / 32`, and every group shares the 32 weight channels `ch mod 32`.
  No law of arithmetic is used anywhere: both programs perform exactly these additions and products in this order.
-/
import Idealize.ShloMosaic.PureOps.Ideal
import Idealize.ShloMosaic.Lib.ValueIdx

noncomputable section

namespace Cert.Taps

open Idealize.ShloMosaic Idealize.ShloMosaic.ValueIdx

variable {F : FTy → Type} [FloatOps F]

/-- Where tap (a, b) reads the padded input for the output position (n, ch, h, w). -/
abbrev padAt (a b : Nat) (ha : a ≤ 2) (hb : b ≤ 2) (n : Fin 8) (ch : Fin 256) (h w : Fin 96) :
    (⟨4, ![8, 256, 98, 98]⟩ : Shape).Idx :=
  ix4 n ch ⟨h.val + a, by omega⟩ ⟨w.val + b, by omega⟩

/-- Where tap k reads the weights for the output position (n, ch, h, w): weight channel `ch mod 32`. -/
abbrev wgtAt (k : Nat) (hk : k < 9) (n : Fin 8) (ch : Fin 256) (h w : Fin 96) :
    (⟨5, ![8, 32, 9, 96, 96]⟩ : Shape).Idx :=
  ix5 n ⟨ch.val % 32, Nat.mod_lt _ (by decide)⟩ ⟨k, hk⟩ h w

/-- One tap's product. -/
def tap (xp : (⟨4, ![8, 256, 98, 98]⟩ : Shape).Idx → F .f32) (wt : (⟨5, ![8, 32, 9, 96, 96]⟩ : Shape).Idx → F .f32)
    (k a b : Nat) (hk : k < 9) (ha : a ≤ 2) (hb : b ≤ 2) (n : Fin 8) (ch : Fin 256) (h w : Fin 96) : F .f32 :=
  FloatOps.mulf (xp (padAt a b ha hb n ch h w)) (wt (wgtAt k hk n ch h w))

/-- Nine values accumulated from zero, the first one first: ((0 + p₀) + p₁) + … + p₈. -/
def acc9 (p0 p1 p2 p3 p4 p5 p6 p7 p8 : F .f32) : F .f32 :=
  FloatOps.addf (FloatOps.addf (FloatOps.addf (FloatOps.addf (FloatOps.addf (FloatOps.addf (FloatOps.addf (FloatOps.addf (FloatOps.addf (FloatOps.ofBits .f32 0x00000000#32) p0) p1) p2) p3) p4) p5) p6) p7) p8

/-- The nine taps accumulated from zero, k = 0 first. -/
def sumTaps (xp : (⟨4, ![8, 256, 98, 98]⟩ : Shape).Idx → F .f32) (wt : (⟨5, ![8, 32, 9, 96, 96]⟩ : Shape).Idx → F .f32)
    (n : Fin 8) (ch : Fin 256) (h w : Fin 96) : F .f32 :=
  acc9 (tap xp wt 0 0 0 (by decide) (by decide) (by decide) n ch h w)
    (tap xp wt 1 0 1 (by decide) (by decide) (by decide) n ch h w)
    (tap xp wt 2 0 2 (by decide) (by decide) (by decide) n ch h w)
    (tap xp wt 3 1 0 (by decide) (by decide) (by decide) n ch h w)
    (tap xp wt 4 1 1 (by decide) (by decide) (by decide) n ch h w)
    (tap xp wt 5 1 2 (by decide) (by decide) (by decide) n ch h w)
    (tap xp wt 6 2 0 (by decide) (by decide) (by decide) n ch h w)
    (tap xp wt 7 2 1 (by decide) (by decide) (by decide) n ch h w)
    (tap xp wt 8 2 2 (by decide) (by decide) (by decide) n ch h w)

/-- The whole result array, index by index. -/
def G (xp : (⟨4, ![8, 256, 98, 98]⟩ : Shape).Idx → F .f32) (wt : (⟨5, ![8, 32, 9, 96, 96]⟩ : Shape).Idx → F .f32) :
    (⟨4, ![8, 256, 96, 96]⟩ : Shape).Idx → F .f32 :=
  fun i => sumTaps xp wt (i 0) (i 1) (i 2) (i 3)

end Cert.Taps

end
-- ==== Proof.TapsReference.lean ====
/-
  The reference computes `Taps.G` of the padded input and the weights.

  Reading the reference's last value at an index i = (n, ch, h, w) and following each operation back to its operands:
  the final reshape sends i to (n, ch / 32, ch mod 32, h, w) of the grouped array [8, 8, 32, 96, 96]; each of the nine
  additions and products is pointwise; tap k's window is the reshape of a slice of the padded array at offset (a, b),
  so it reads the padded array at (n, (ch / 32)·32 + ch mod 32, h + a, w + b) = (n, ch, h + a, w + b); tap k's weights
  are a unit slice at position k of axis 2, reshaped and broadcast over the group axis, so they are read at
  (n, ch mod 32, k, h, w). The row-major arithmetic of the reshapes is linear arithmetic with division by literals.
  The padding itself is never opened: both programs hold the same padded array.
-/
import proofs.«175276_j38431367364745_1_alg».proof.Proof.Gen.ReferenceIdeal.Read
import proofs.«175276_j38431367364745_1_alg».proof.Proof.Taps

noncomputable section

namespace Cert.Taps.Reference

open Cert.ReferenceIdeal Cert.ReferenceIdeal.Read Idealize.ShloMosaic Idealize.ShloMosaic.ValueIdx Cert.Taps

variable {F : FTy → Type} [FloatOps F]

/-- Tap 0 (offset (0, 0)): the padded array is read at (n, ch, h + 0, w + 0). -/
theorem padIdx_0 (i : S8x256x96x96.Idx) :
    idx_main_v2 (idx_main_v3 (idx_main_v74 i)) = padAt 0 0 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 0: the weights are read at (n, ch mod 32, 0, h, w). -/
theorem wgtIdx_0 (i : S8x256x96x96.Idx) :
    idx_main_v4 (idx_main_v5 (idx_main_v6 (idx_main_v7 (idx_main_v74 i)))) = wgtAt 0 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 1 (offset (0, 1)): the padded array is read at (n, ch, h + 0, w + 1). -/
theorem padIdx_1 (i : S8x256x96x96.Idx) :
    idx_main_v10 (idx_main_v11 (idx_main_v74 i)) = padAt 0 1 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 1: the weights are read at (n, ch mod 32, 1, h, w). -/
theorem wgtIdx_1 (i : S8x256x96x96.Idx) :
    idx_main_v12 (idx_main_v13 (idx_main_v14 (idx_main_v15 (idx_main_v74 i)))) = wgtAt 1 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 2 (offset (0, 2)): the padded array is read at (n, ch, h + 0, w + 2). -/
theorem padIdx_2 (i : S8x256x96x96.Idx) :
    idx_main_v18 (idx_main_v19 (idx_main_v74 i)) = padAt 0 2 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 2: the weights are read at (n, ch mod 32, 2, h, w). -/
theorem wgtIdx_2 (i : S8x256x96x96.Idx) :
    idx_main_v20 (idx_main_v21 (idx_main_v22 (idx_main_v23 (idx_main_v74 i)))) = wgtAt 2 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 3 (offset (1, 0)): the padded array is read at (n, ch, h + 1, w + 0). -/
theorem padIdx_3 (i : S8x256x96x96.Idx) :
    idx_main_v26 (idx_main_v27 (idx_main_v74 i)) = padAt 1 0 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 3: the weights are read at (n, ch mod 32, 3, h, w). -/
theorem wgtIdx_3 (i : S8x256x96x96.Idx) :
    idx_main_v28 (idx_main_v29 (idx_main_v30 (idx_main_v31 (idx_main_v74 i)))) = wgtAt 3 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 4 (offset (1, 1)): the padded array is read at (n, ch, h + 1, w + 1). -/
theorem padIdx_4 (i : S8x256x96x96.Idx) :
    idx_main_v34 (idx_main_v35 (idx_main_v74 i)) = padAt 1 1 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 4: the weights are read at (n, ch mod 32, 4, h, w). -/
theorem wgtIdx_4 (i : S8x256x96x96.Idx) :
    idx_main_v36 (idx_main_v37 (idx_main_v38 (idx_main_v39 (idx_main_v74 i)))) = wgtAt 4 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 5 (offset (1, 2)): the padded array is read at (n, ch, h + 1, w + 2). -/
theorem padIdx_5 (i : S8x256x96x96.Idx) :
    idx_main_v42 (idx_main_v43 (idx_main_v74 i)) = padAt 1 2 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 5: the weights are read at (n, ch mod 32, 5, h, w). -/
theorem wgtIdx_5 (i : S8x256x96x96.Idx) :
    idx_main_v44 (idx_main_v45 (idx_main_v46 (idx_main_v47 (idx_main_v74 i)))) = wgtAt 5 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 6 (offset (2, 0)): the padded array is read at (n, ch, h + 2, w + 0). -/
theorem padIdx_6 (i : S8x256x96x96.Idx) :
    idx_main_v50 (idx_main_v51 (idx_main_v74 i)) = padAt 2 0 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 6: the weights are read at (n, ch mod 32, 6, h, w). -/
theorem wgtIdx_6 (i : S8x256x96x96.Idx) :
    idx_main_v52 (idx_main_v53 (idx_main_v54 (idx_main_v55 (idx_main_v74 i)))) = wgtAt 6 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 7 (offset (2, 1)): the padded array is read at (n, ch, h + 2, w + 1). -/
theorem padIdx_7 (i : S8x256x96x96.Idx) :
    idx_main_v58 (idx_main_v59 (idx_main_v74 i)) = padAt 2 1 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 7: the weights are read at (n, ch mod 32, 7, h, w). -/
theorem wgtIdx_7 (i : S8x256x96x96.Idx) :
    idx_main_v60 (idx_main_v61 (idx_main_v62 (idx_main_v63 (idx_main_v74 i)))) = wgtAt 7 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- Tap 8 (offset (2, 2)): the padded array is read at (n, ch, h + 2, w + 2). -/
theorem padIdx_8 (i : S8x256x96x96.Idx) :
    idx_main_v66 (idx_main_v67 (idx_main_v74 i)) = padAt 2 2 (by decide) (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega

/-- Tap 8: the weights are read at (n, ch mod 32, 8, h, w). -/
theorem wgtIdx_8 (i : S8x256x96x96.Idx) :
    idx_main_v68 (idx_main_v69 (idx_main_v70 (idx_main_v71 (idx_main_v74 i)))) = wgtAt 8 (by decide) (i 0) (i 1) (i 2) (i 3) := by
  have h0 : (i 0).val < 8 := (i 0).isLt
  have h1 : (i 1).val < 256 := (i 1).isLt
  have h2 : (i 2).val < 96 := (i 2).isLt
  have h3 : (i 3).val < 96 := (i 3).isLt
  funext d; apply Fin.ext
  match d with
  | ⟨0, _⟩ => dsimp only [padAt, wgtAt, ix4, ix5] <;> omega
  | ⟨1, _⟩ => dsimp only [padAt, wgtAt, ix4, ix5] <;> omega
  | ⟨2, _⟩ => dsimp only [padAt, wgtAt, ix4, ix5] <;> omega
  | ⟨3, _⟩ => dsimp only [padAt, wgtAt, ix4, ix5] <;> omega
  | ⟨4, _⟩ => dsimp only [padAt, wgtAt, ix4, ix5] <;> omega

/-- The reference's result, as a function of its two arguments, is `G` of the padded first argument and the second. -/
theorem result_eq (x0 : (⟨S8x256x96x96, .f32⟩ : BufTy).Contents (Elt F)) (x1 : (⟨S8x32x9x96x96, .f32⟩ : BufTy).Contents (Elt F)) :
    val_main_v74 (F := F) x0 x1 = G (val_main_v0 (F := F) x0) x1 := by
  funext i
  rw [val_main_v74_apply, val_main_v73_apply, val_main_v72_apply, val_main_v67_apply, val_main_v66_apply, val_main_v71_apply, val_main_v70_apply, val_main_v69_apply, val_main_v68_apply, val_main_v65_apply, val_main_v64_apply, val_main_v59_apply, val_main_v58_apply, val_main_v63_apply, val_main_v62_apply, val_main_v61_apply, val_main_v60_apply, val_main_v57_apply, val_main_v56_apply, val_main_v51_apply, val_main_v50_apply, val_main_v55_apply, val_main_v54_apply, val_main_v53_apply, val_main_v52_apply, val_main_v49_apply, val_main_v48_apply, val_main_v43_apply, val_main_v42_apply, val_main_v47_apply, val_main_v46_apply, val_main_v45_apply, val_main_v44_apply, val_main_v41_apply, val_main_v40_apply, val_main_v35_apply, val_main_v34_apply, val_main_v39_apply, val_main_v38_apply, val_main_v37_apply, val_main_v36_apply, val_main_v33_apply, val_main_v32_apply, val_main_v27_apply, val_main_v26_apply, val_main_v31_apply, val_main_v30_apply, val_main_v29_apply, val_main_v28_apply, val_main_v25_apply, val_main_v24_apply, val_main_v19_apply, val_main_v18_apply, val_main_v23_apply, val_main_v22_apply, val_main_v21_apply, val_main_v20_apply, val_main_v17_apply, val_main_v16_apply, val_main_v11_apply, val_main_v10_apply, val_main_v15_apply, val_main_v14_apply, val_main_v13_apply, val_main_v12_apply, val_main_v9_apply, val_main_v8_apply, val_main_v3_apply, val_main_v2_apply, val_main_v7_apply, val_main_v6_apply, val_main_v5_apply, val_main_v4_apply, val_main_v1_apply, val_main_cst_apply]
  rw [padIdx_0 i, wgtIdx_0 i, padIdx_1 i, wgtIdx_1 i, padIdx_2 i, wgtIdx_2 i, padIdx_3 i, wgtIdx_3 i, padIdx_4 i, wgtIdx_4 i, padIdx_5 i, wgtIdx_5 i, padIdx_6 i, wgtIdx_6 i, padIdx_7 i, wgtIdx_7 i, padIdx_8 i, wgtIdx_8 i]
  rfl

end Cert.Taps.Reference

end
-- ==== Proof.TapsBlock.lean ====
/-
  One grid point of the kernel: what the body leaves in its output block, element by element.

  The body holds a block [1, 32, 98, 98] of the padded input (32 channels of one group, whole padded planes) and a
  block [1, 32, 9, 96, 96] of the weights. It drops the leading unit axis of the input block, takes the nine
  96×96 windows at offsets (a, b), a, b ∈ {0, 1, 2}, multiplies window k = 3a + b by the weights' slab k (a unit slice
  of axis 2 with both unit axes dropped), adds the nine products to zero in the order k = 0, …, 8, and stores the sum
  with the unit axis put back. So the element (0, c, h, w) of the output block is
      ((0 + x[0, c, h+0, w+0]·y[0, c, 0, h, w]) + … ) + x[0, c, h+2, w+2]·y[0, c, 8, h, w].
  Each layout step is read at an index by the row-major position it preserves; the arithmetic is pointwise.
-/
import proofs.«175276_j38431367364745_1_alg».proof.Proof.Gen.KernelIdeal.Frame
import proofs.«175276_j38431367364745_1_alg».proof.Proof.Taps
import Idealize.ShloMosaic.Lib.Pipeline.Value
import Idealize.ShloMosaic.Lib.ValueIdx

noncomputable section

namespace Cert.Taps.Block

open Cert.KernelIdeal Cert.KernelIdeal.Gen Idealize.ShloMosaic Idealize.ShloMosaic.ValueIdx Cert.Taps

variable {F : FTy → Type} [FloatOps F] {α : Type}

theorem hz4 : (![0, 0, 0, 0] : Fin 4 → Nat) = fun _ => 0 := funext fun a => by fin_cases a <;> rfl

/-- Putting the leading unit axis back: [32, 96, 96] → [1, 32, 96, 96] read at (z, c, h, w). -/
theorem castOut_apply (v : S32x96x96.Idx → α) (z : Fin 1) (c : Fin 32) (h w : Fin 96) :
    shapeCast S1x32x96x96 v shapeCasts_S32x96x96_S1x32x96x96 (ix4 z c h w) = v (ix3 c h w) := by
  refine shapeCast_apply v _ (ix4 z c h w) (ix3 c h w) ?_
  rw [Shape.rowMajor_val_three, Shape.rowMajor_val_four]
  have hz : z.val < 1 := z.isLt
  show (c.val * 96 + h.val) * 96 + w.val = ((z.val * 32 + c.val) * 96 + h.val) * 96 + w.val
  omega

/-- Dropping both unit axes of a weight slab: [1, 32, 1, 96, 96] → [32, 96, 96] read at (c, h, w). -/
theorem castWgt_apply (P : S1x32x1x96x96.Idx → α) (c : Fin 32) (h w : Fin 96) :
    shapeCast S32x96x96 P shapeCasts_S1x32x1x96x96_S32x96x96 (ix3 c h w) = P (ix5 (0 : Fin 1) c (0 : Fin 1) h w) := by
  refine shapeCast_apply P _ (ix3 c h w) (ix5 (0 : Fin 1) c (0 : Fin 1) h w) ?_
  rw [Shape.rowMajor_val_five, Shape.rowMajor_val_three]
  show (((0 * 32 + c.val) * 1 + 0) * 96 + h.val) * 96 + w.val = (c.val * 96 + h.val) * 96 + w.val
  omega

/-- Window (0, 0) of the input block with its unit axis dropped, read at (c, h, w): the block at (0, c, h + 0, w + 0). -/
theorem window_0_0 (P0 : S1x32x98x98.Idx → α) (c : Fin 32) (h w : Fin 96) :
    extractStridedSlice S32x96x96 ![0, 0, 0] (shapeCast S32x98x98 P0 shapeCasts_S1x32x98x98_S32x98x98) slices_S32x98x98_o0_0_0_S32x96x96 (ix3 c h w)
      = P0 (ix4 (0 : Fin 1) c (⟨h.val + 0, by omega⟩ : Fin 98) (⟨w.val + 0, by omega⟩ : Fin 98)) := by
  refine (extractStridedSlice_apply ![0, 0, 0] _ slices_S32x98x98_o0_0_0_S32x96x96 (ix3 c h w)
    (ix3 c (⟨h.val + 0, by omega⟩ : Fin 98) (⟨w.val + 0, by omega⟩ : Fin 98)) ?_).trans ?_
  · intro d
    match d with
    | ⟨0, _⟩ => show c.val = 0 + c.val; omega
    | ⟨1, _⟩ => show h.val + 0 = 0 + h.val; omega
    | ⟨2, _⟩ => show w.val + 0 = 0 + w.val; omega
  · refine shapeCast_apply P0 _ _ _ ?_
    rw [Shape.rowMajor_val_four, Shape.rowMajor_val_three]
    show ((0 * 32 + c.val) * 98 + (h.val + 0)) * 98 + (w.val + 0) = (c.val * 98 + (h.val + 0)) * 98 + (w.val + 0)
    omega

/-- The body's load of weight slab 0 (a unit slice at position 0 of axis 2), read at (0, c, 0, h, w): the block at (0, c, 0, h, w). -/
theorem slab_0 (x1 : Vec F S1x32x9x96x96 .f32) (c : Fin 32) (h w : Fin 96) :
    View.ld x1 r0_1 (ix5 (0 : Fin 1) c (0 : Fin 1) h w) = x1 (ix5 (0 : Fin 1) c (⟨0, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 0 + 1 * 0 = 0; omega
  | ⟨3, _⟩ => show 0 + 1 * h.val = h.val; omega
  | ⟨4, _⟩ => show 0 + 1 * w.val = w.val; omega

/-- Window (0, 1) of the input block with its unit axis dropped, read at (c, h, w): the block at (0, c, h + 0, w + 1). -/
theorem window_0_1 (P0 : S1x32x98x98.Idx → α) (c : Fin 32) (h w : Fin 96) :
    extractStridedSlice S32x96x96 ![0, 0, 1] (shapeCast S32x98x98 P0 shapeCasts_S1x32x98x98_S32x98x98) slices_S32x98x98_o0_0_1_S32x96x96 (ix3 c h w)
      = P0 (ix4 (0 : Fin 1) c (⟨h.val + 0, by omega⟩ : Fin 98) (⟨w.val + 1, by omega⟩ : Fin 98)) := by
  refine (extractStridedSlice_apply ![0, 0, 1] _ slices_S32x98x98_o0_0_1_S32x96x96 (ix3 c h w)
    (ix3 c (⟨h.val + 0, by omega⟩ : Fin 98) (⟨w.val + 1, by omega⟩ : Fin 98)) ?_).trans ?_
  · intro d
    match d with
    | ⟨0, _⟩ => show c.val = 0 + c.val; omega
    | ⟨1, _⟩ => show h.val + 0 = 0 + h.val; omega
    | ⟨2, _⟩ => show w.val + 1 = 1 + w.val; omega
  · refine shapeCast_apply P0 _ _ _ ?_
    rw [Shape.rowMajor_val_four, Shape.rowMajor_val_three]
    show ((0 * 32 + c.val) * 98 + (h.val + 0)) * 98 + (w.val + 1) = (c.val * 98 + (h.val + 0)) * 98 + (w.val + 1)
    omega

/-- The body's load of weight slab 1 (a unit slice at position 1 of axis 2), read at (0, c, 0, h, w): the block at (0, c, 1, h, w). -/
theorem slab_1 (x1 : Vec F S1x32x9x96x96 .f32) (c : Fin 32) (h w : Fin 96) :
    View.ld x1 r0_2 (ix5 (0 : Fin 1) c (0 : Fin 1) h w) = x1 (ix5 (0 : Fin 1) c (⟨1, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 1 + 1 * 0 = 1; omega
  | ⟨3, _⟩ => show 0 + 1 * h.val = h.val; omega
  | ⟨4, _⟩ => show 0 + 1 * w.val = w.val; omega

/-- Window (0, 2) of the input block with its unit axis dropped, read at (c, h, w): the block at (0, c, h + 0, w + 2). -/
theorem window_0_2 (P0 : S1x32x98x98.Idx → α) (c : Fin 32) (h w : Fin 96) :
    extractStridedSlice S32x96x96 ![0, 0, 2] (shapeCast S32x98x98 P0 shapeCasts_S1x32x98x98_S32x98x98) slices_S32x98x98_o0_0_2_S32x96x96 (ix3 c h w)
      = P0 (ix4 (0 : Fin 1) c (⟨h.val + 0, by omega⟩ : Fin 98) (⟨w.val + 2, by omega⟩ : Fin 98)) := by
  refine (extractStridedSlice_apply ![0, 0, 2] _ slices_S32x98x98_o0_0_2_S32x96x96 (ix3 c h w)
    (ix3 c (⟨h.val + 0, by omega⟩ : Fin 98) (⟨w.val + 2, by omega⟩ : Fin 98)) ?_).trans ?_
  · intro d
    match d with
    | ⟨0, _⟩ => show c.val = 0 + c.val; omega
    | ⟨1, _⟩ => show h.val + 0 = 0 + h.val; omega
    | ⟨2, _⟩ => show w.val + 2 = 2 + w.val; omega
  · refine shapeCast_apply P0 _ _ _ ?_
    rw [Shape.rowMajor_val_four, Shape.rowMajor_val_three]
    show ((0 * 32 + c.val) * 98 + (h.val + 0)) * 98 + (w.val + 2) = (c.val * 98 + (h.val + 0)) * 98 + (w.val + 2)
    omega

/-- The body's load of weight slab 2 (a unit slice at position 2 of axis 2), read at (0, c, 0, h, w): the block at (0, c, 2, h, w). -/
theorem slab_2 (x1 : Vec F S1x32x9x96x96 .f32) (c : Fin 32) (h w : Fin 96) :
    View.ld x1 r0_3 (ix5 (0 : Fin 1) c (0 : Fin 1) h w) = x1 (ix5 (0 : Fin 1) c (⟨2, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 2 + 1 * 0 = 2; omega
  | ⟨3, _⟩ => show 0 + 1 * h.val = h.val; omega
  | ⟨4, _⟩ => show 0 + 1 * w.val = w.val; omega

/-- Window (1, 0) of the input block with its unit axis dropped, read at (c, h, w): the block at (0, c, h + 1, w + 0). -/
theorem window_1_0 (P0 : S1x32x98x98.Idx → α) (c : Fin 32) (h w : Fin 96) :
    extractStridedSlice S32x96x96 ![0, 1, 0] (shapeCast S32x98x98 P0 shapeCasts_S1x32x98x98_S32x98x98) slices_S32x98x98_o0_1_0_S32x96x96 (ix3 c h w)
      = P0 (ix4 (0 : Fin 1) c (⟨h.val + 1, by omega⟩ : Fin 98) (⟨w.val + 0, by omega⟩ : Fin 98)) := by
  refine (extractStridedSlice_apply ![0, 1, 0] _ slices_S32x98x98_o0_1_0_S32x96x96 (ix3 c h w)
    (ix3 c (⟨h.val + 1, by omega⟩ : Fin 98) (⟨w.val + 0, by omega⟩ : Fin 98)) ?_).trans ?_
  · intro d
    match d with
    | ⟨0, _⟩ => show c.val = 0 + c.val; omega
    | ⟨1, _⟩ => show h.val + 1 = 1 + h.val; omega
    | ⟨2, _⟩ => show w.val + 0 = 0 + w.val; omega
  · refine shapeCast_apply P0 _ _ _ ?_
    rw [Shape.rowMajor_val_four, Shape.rowMajor_val_three]
    show ((0 * 32 + c.val) * 98 + (h.val + 1)) * 98 + (w.val + 0) = (c.val * 98 + (h.val + 1)) * 98 + (w.val + 0)
    omega

/-- The body's load of weight slab 3 (a unit slice at position 3 of axis 2), read at (0, c, 0, h, w): the block at (0, c, 3, h, w). -/
theorem slab_3 (x1 : Vec F S1x32x9x96x96 .f32) (c : Fin 32) (h w : Fin 96) :
    View.ld x1 r0_4 (ix5 (0 : Fin 1) c (0 : Fin 1) h w) = x1 (ix5 (0 : Fin 1) c (⟨3, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 3 + 1 * 0 = 3; omega
  | ⟨3, _⟩ => show 0 + 1 * h.val = h.val; omega
  | ⟨4, _⟩ => show 0 + 1 * w.val = w.val; omega

/-- Window (1, 1) of the input block with its unit axis dropped, read at (c, h, w): the block at (0, c, h + 1, w + 1). -/
theorem window_1_1 (P0 : S1x32x98x98.Idx → α) (c : Fin 32) (h w : Fin 96) :
    extractStridedSlice S32x96x96 ![0, 1, 1] (shapeCast S32x98x98 P0 shapeCasts_S1x32x98x98_S32x98x98) slices_S32x98x98_o0_1_1_S32x96x96 (ix3 c h w)
      = P0 (ix4 (0 : Fin 1) c (⟨h.val + 1, by omega⟩ : Fin 98) (⟨w.val + 1, by omega⟩ : Fin 98)) := by
  refine (extractStridedSlice_apply ![0, 1, 1] _ slices_S32x98x98_o0_1_1_S32x96x96 (ix3 c h w)
    (ix3 c (⟨h.val + 1, by omega⟩ : Fin 98) (⟨w.val + 1, by omega⟩ : Fin 98)) ?_).trans ?_
  · intro d
    match d with
    | ⟨0, _⟩ => show c.val = 0 + c.val; omega
    | ⟨1, _⟩ => show h.val + 1 = 1 + h.val; omega
    | ⟨2, _⟩ => show w.val + 1 = 1 + w.val; omega
  · refine shapeCast_apply P0 _ _ _ ?_
    rw [Shape.rowMajor_val_four, Shape.rowMajor_val_three]
    show ((0 * 32 + c.val) * 98 + (h.val + 1)) * 98 + (w.val + 1) = (c.val * 98 + (h.val + 1)) * 98 + (w.val + 1)
    omega

/-- The body's load of weight slab 4 (a unit slice at position 4 of axis 2), read at (0, c, 0, h, w): the block at (0, c, 4, h, w). -/
theorem slab_4 (x1 : Vec F S1x32x9x96x96 .f32) (c : Fin 32) (h w : Fin 96) :
    View.ld x1 r0_5 (ix5 (0 : Fin 1) c (0 : Fin 1) h w) = x1 (ix5 (0 : Fin 1) c (⟨4, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 4 + 1 * 0 = 4; omega
  | ⟨3, _⟩ => show 0 + 1 * h.val = h.val; omega
  | ⟨4, _⟩ => show 0 + 1 * w.val = w.val; omega

/-- Window (1, 2) of the input block with its unit axis dropped, read at (c, h, w): the block at (0, c, h + 1, w + 2). -/
theorem window_1_2 (P0 : S1x32x98x98.Idx → α) (c : Fin 32) (h w : Fin 96) :
    extractStridedSlice S32x96x96 ![0, 1, 2] (shapeCast S32x98x98 P0 shapeCasts_S1x32x98x98_S32x98x98) slices_S32x98x98_o0_1_2_S32x96x96 (ix3 c h w)
      = P0 (ix4 (0 : Fin 1) c (⟨h.val + 1, by omega⟩ : Fin 98) (⟨w.val + 2, by omega⟩ : Fin 98)) := by
  refine (extractStridedSlice_apply ![0, 1, 2] _ slices_S32x98x98_o0_1_2_S32x96x96 (ix3 c h w)
    (ix3 c (⟨h.val + 1, by omega⟩ : Fin 98) (⟨w.val + 2, by omega⟩ : Fin 98)) ?_).trans ?_
  · intro d
    match d with
    | ⟨0, _⟩ => show c.val = 0 + c.val; omega
    | ⟨1, _⟩ => show h.val + 1 = 1 + h.val; omega
    | ⟨2, _⟩ => show w.val + 2 = 2 + w.val; omega
  · refine shapeCast_apply P0 _ _ _ ?_
    rw [Shape.rowMajor_val_four, Shape.rowMajor_val_three]
    show ((0 * 32 + c.val) * 98 + (h.val + 1)) * 98 + (w.val + 2) = (c.val * 98 + (h.val + 1)) * 98 + (w.val + 2)
    omega

/-- The body's load of weight slab 5 (a unit slice at position 5 of axis 2), read at (0, c, 0, h, w): the block at (0, c, 5, h, w). -/
theorem slab_5 (x1 : Vec F S1x32x9x96x96 .f32) (c : Fin 32) (h w : Fin 96) :
    View.ld x1 r0_6 (ix5 (0 : Fin 1) c (0 : Fin 1) h w) = x1 (ix5 (0 : Fin 1) c (⟨5, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 5 + 1 * 0 = 5; omega
  | ⟨3, _⟩ => show 0 + 1 * h.val = h.val; omega
  | ⟨4, _⟩ => show 0 + 1 * w.val = w.val; omega

/-- Window (2, 0) of the input block with its unit axis dropped, read at (c, h, w): the block at (0, c, h + 2, w + 0). -/
theorem window_2_0 (P0 : S1x32x98x98.Idx → α) (c : Fin 32) (h w : Fin 96) :
    extractStridedSlice S32x96x96 ![0, 2, 0] (shapeCast S32x98x98 P0 shapeCasts_S1x32x98x98_S32x98x98) slices_S32x98x98_o0_2_0_S32x96x96 (ix3 c h w)
      = P0 (ix4 (0 : Fin 1) c (⟨h.val + 2, by omega⟩ : Fin 98) (⟨w.val + 0, by omega⟩ : Fin 98)) := by
  refine (extractStridedSlice_apply ![0, 2, 0] _ slices_S32x98x98_o0_2_0_S32x96x96 (ix3 c h w)
    (ix3 c (⟨h.val + 2, by omega⟩ : Fin 98) (⟨w.val + 0, by omega⟩ : Fin 98)) ?_).trans ?_
  · intro d
    match d with
    | ⟨0, _⟩ => show c.val = 0 + c.val; omega
    | ⟨1, _⟩ => show h.val + 2 = 2 + h.val; omega
    | ⟨2, _⟩ => show w.val + 0 = 0 + w.val; omega
  · refine shapeCast_apply P0 _ _ _ ?_
    rw [Shape.rowMajor_val_four, Shape.rowMajor_val_three]
    show ((0 * 32 + c.val) * 98 + (h.val + 2)) * 98 + (w.val + 0) = (c.val * 98 + (h.val + 2)) * 98 + (w.val + 0)
    omega

/-- The body's load of weight slab 6 (a unit slice at position 6 of axis 2), read at (0, c, 0, h, w): the block at (0, c, 6, h, w). -/
theorem slab_6 (x1 : Vec F S1x32x9x96x96 .f32) (c : Fin 32) (h w : Fin 96) :
    View.ld x1 r0_7 (ix5 (0 : Fin 1) c (0 : Fin 1) h w) = x1 (ix5 (0 : Fin 1) c (⟨6, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 6 + 1 * 0 = 6; omega
  | ⟨3, _⟩ => show 0 + 1 * h.val = h.val; omega
  | ⟨4, _⟩ => show 0 + 1 * w.val = w.val; omega

/-- Window (2, 1) of the input block with its unit axis dropped, read at (c, h, w): the block at (0, c, h + 2, w + 1). -/
theorem window_2_1 (P0 : S1x32x98x98.Idx → α) (c : Fin 32) (h w : Fin 96) :
    extractStridedSlice S32x96x96 ![0, 2, 1] (shapeCast S32x98x98 P0 shapeCasts_S1x32x98x98_S32x98x98) slices_S32x98x98_o0_2_1_S32x96x96 (ix3 c h w)
      = P0 (ix4 (0 : Fin 1) c (⟨h.val + 2, by omega⟩ : Fin 98) (⟨w.val + 1, by omega⟩ : Fin 98)) := by
  refine (extractStridedSlice_apply ![0, 2, 1] _ slices_S32x98x98_o0_2_1_S32x96x96 (ix3 c h w)
    (ix3 c (⟨h.val + 2, by omega⟩ : Fin 98) (⟨w.val + 1, by omega⟩ : Fin 98)) ?_).trans ?_
  · intro d
    match d with
    | ⟨0, _⟩ => show c.val = 0 + c.val; omega
    | ⟨1, _⟩ => show h.val + 2 = 2 + h.val; omega
    | ⟨2, _⟩ => show w.val + 1 = 1 + w.val; omega
  · refine shapeCast_apply P0 _ _ _ ?_
    rw [Shape.rowMajor_val_four, Shape.rowMajor_val_three]
    show ((0 * 32 + c.val) * 98 + (h.val + 2)) * 98 + (w.val + 1) = (c.val * 98 + (h.val + 2)) * 98 + (w.val + 1)
    omega

/-- The body's load of weight slab 7 (a unit slice at position 7 of axis 2), read at (0, c, 0, h, w): the block at (0, c, 7, h, w). -/
theorem slab_7 (x1 : Vec F S1x32x9x96x96 .f32) (c : Fin 32) (h w : Fin 96) :
    View.ld x1 r0_8 (ix5 (0 : Fin 1) c (0 : Fin 1) h w) = x1 (ix5 (0 : Fin 1) c (⟨7, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 7 + 1 * 0 = 7; omega
  | ⟨3, _⟩ => show 0 + 1 * h.val = h.val; omega
  | ⟨4, _⟩ => show 0 + 1 * w.val = w.val; omega

/-- Window (2, 2) of the input block with its unit axis dropped, read at (c, h, w): the block at (0, c, h + 2, w + 2). -/
theorem window_2_2 (P0 : S1x32x98x98.Idx → α) (c : Fin 32) (h w : Fin 96) :
    extractStridedSlice S32x96x96 ![0, 2, 2] (shapeCast S32x98x98 P0 shapeCasts_S1x32x98x98_S32x98x98) slices_S32x98x98_o0_2_2_S32x96x96 (ix3 c h w)
      = P0 (ix4 (0 : Fin 1) c (⟨h.val + 2, by omega⟩ : Fin 98) (⟨w.val + 2, by omega⟩ : Fin 98)) := by
  refine (extractStridedSlice_apply ![0, 2, 2] _ slices_S32x98x98_o0_2_2_S32x96x96 (ix3 c h w)
    (ix3 c (⟨h.val + 2, by omega⟩ : Fin 98) (⟨w.val + 2, by omega⟩ : Fin 98)) ?_).trans ?_
  · intro d
    match d with
    | ⟨0, _⟩ => show c.val = 0 + c.val; omega
    | ⟨1, _⟩ => show h.val + 2 = 2 + h.val; omega
    | ⟨2, _⟩ => show w.val + 2 = 2 + w.val; omega
  · refine shapeCast_apply P0 _ _ _ ?_
    rw [Shape.rowMajor_val_four, Shape.rowMajor_val_three]
    show ((0 * 32 + c.val) * 98 + (h.val + 2)) * 98 + (w.val + 2) = (c.val * 98 + (h.val + 2)) * 98 + (w.val + 2)
    omega

/-- The body's load of weight slab 8 (a unit slice at position 8 of axis 2), read at (0, c, 0, h, w): the block at (0, c, 8, h, w). -/
theorem slab_8 (x1 : Vec F S1x32x9x96x96 .f32) (c : Fin 32) (h w : Fin 96) :
    View.ld x1 r0_9 (ix5 (0 : Fin 1) c (0 : Fin 1) h w) = x1 (ix5 (0 : Fin 1) c (⟨8, by decide⟩ : Fin 9) h w) := by
  show x1 _ = x1 _
  refine congrArg x1 ?_
  funext d; apply Fin.ext
  match d with
  | ⟨0, _⟩ => show 0 + 1 * 0 = 0; omega
  | ⟨1, _⟩ => show 0 + 1 * c.val = c.val; omega
  | ⟨2, _⟩ => show 8 + 1 * 0 = 8; omega
  | ⟨3, _⟩ => show 0 + 1 * h.val = h.val; omega
  | ⟨4, _⟩ => show 0 + 1 * w.val = w.val; omega

/-- THE OUTPUT BLOCK, element by element: the nine products of the input block's windows with the weight slabs,
    accumulated from zero. -/
theorem block_apply (x0 : Vec F S1x32x98x98 .f32) (x1 : Vec F S1x32x9x96x96 .f32) (z : Fin 1) (c : Fin 32) (h w : Fin 96) :
    out0_2 x0 x1 (ix4 z c h w)
      = acc9 (FloatOps.mulf (x0 (ix4 (0 : Fin 1) c (⟨h.val + 0, by omega⟩ : Fin 98) (⟨w.val + 0, by omega⟩ : Fin 98))) (x1 (ix5 (0 : Fin 1) c (⟨0, by decide⟩ : Fin 9) h w)))
        (FloatOps.mulf (x0 (ix4 (0 : Fin 1) c (⟨h.val + 0, by omega⟩ : Fin 98) (⟨w.val + 1, by omega⟩ : Fin 98))) (x1 (ix5 (0 : Fin 1) c (⟨1, by decide⟩ : Fin 9) h w)))
        (FloatOps.mulf (x0 (ix4 (0 : Fin 1) c (⟨h.val + 0, by omega⟩ : Fin 98) (⟨w.val + 2, by omega⟩ : Fin 98))) (x1 (ix5 (0 : Fin 1) c (⟨2, by decide⟩ : Fin 9) h w)))
        (FloatOps.mulf (x0 (ix4 (0 : Fin 1) c (⟨h.val + 1, by omega⟩ : Fin 98) (⟨w.val + 0, by omega⟩ : Fin 98))) (x1 (ix5 (0 : Fin 1) c (⟨3, by decide⟩ : Fin 9) h w)))
        (FloatOps.mulf (x0 (ix4 (0 : Fin 1) c (⟨h.val + 1, by omega⟩ : Fin 98) (⟨w.val + 1, by omega⟩ : Fin 98))) (x1 (ix5 (0 : Fin 1) c (⟨4, by decide⟩ : Fin 9) h w)))
        (FloatOps.mulf (x0 (ix4 (0 : Fin 1) c (⟨h.val + 1, by omega⟩ : Fin 98) (⟨w.val + 2, by omega⟩ : Fin 98))) (x1 (ix5 (0 : Fin 1) c (⟨5, by decide⟩ : Fin 9) h w)))
        (FloatOps.mulf (x0 (ix4 (0 : Fin 1) c (⟨h.val + 2, by omega⟩ : Fin 98) (⟨w.val + 0, by omega⟩ : Fin 98))) (x1 (ix5 (0 : Fin 1) c (⟨6, by decide⟩ : Fin 9) h w)))
        (FloatOps.mulf (x0 (ix4 (0 : Fin 1) c (⟨h.val + 2, by omega⟩ : Fin 98) (⟨w.val + 1, by omega⟩ : Fin 98))) (x1 (ix5 (0 : Fin 1) c (⟨7, by decide⟩ : Fin 9) h w)))
        (FloatOps.mulf (x0 (ix4 (0 : Fin 1) c (⟨h.val + 2, by omega⟩ : Fin 98) (⟨w.val + 2, by omega⟩ : Fin 98))) (x1 (ix5 (0 : Fin 1) c (⟨8, by decide⟩ : Fin 9) h w))) := by
  unfold out0_2
  rw [View.canon_unit_zero hz4, View.ld_unit_zero (S := S1x32x98x98) hz4]
  unfold k0_pay1 k0_pay3 k0_pay2
  dsimp only
  rw [castOut_apply]
  simp only [addf, mulf, broadcast]
  rw [window_0_0, window_0_1, window_0_2, window_1_0, window_1_1, window_1_2, window_2_0, window_2_1, window_2_2]
  simp only [castWgt_apply]
  rw [slab_0, slab_1, slab_2, slab_3, slab_4, slab_5, slab_6, slab_7, slab_8]
  rfl

end Cert.Taps.Block

end
-- ==== Proof.TapsKernel.lean ====
/-
  From the kernel's blocks to its whole result array, and the kernel's run.

  The grid is 8 × 8: point t has coordinates (n, g). At t the pipeline stages block (n, g, 0, 0) of the padded input
  (sizes [1, 32, 98, 98]: the 32 channels of group g of batch entry n, whole padded planes), block (n, 0, 0, 0, 0) of
  the weights (sizes [1, 32, 9, 96, 96]: all of batch entry n, whatever g) and writes back block (n, g, 0, 0) of the
  result (sizes [1, 32, 96, 96]). An element of a block sits in its array, on each axis, at block index × block size +
  its own coordinate. So the block element (0, c, h, w) is the array element (n, 32·g + c, h, w); the input block read
  at (0, c, h + a, w + b) is the padded array at (n, 32·g + c, h + a, w + b); and the weight block read at (0, c, k, h, w)
  is the weight array at (n, c, k, h, w), where c = (32·g + c) mod 32. Hence what point t writes back is block t of
  `Taps.G` of the padded array and the weights; the 64 blocks tile the result array (the point covering (n, ch, h, w)
  is (n, ch / 32)), so the array ends holding `G` everywhere. The padded array is what the two host operations before
  the launch leave: the input padded with the converted integer zero.
-/
import proofs.«175276_j38431367364745_1_alg».proof.Proof.Gen.KernelIdeal.Frame
import proofs.«175276_j38431367364745_1_alg».proof.Proof.Taps
import proofs.«175276_j38431367364745_1_alg».proof.Proof.TapsBlock
import Idealize.ShloMosaic.Lib.Pipeline.Value
import Idealize.ShloMosaic.Lib.ValueIdx
import Idealize.ShloMosaic.Lib.StableHlo.Run

noncomputable section

namespace Cert.Taps.Kernel

open Cert.KernelIdeal Cert.KernelIdeal.Gen Idealize.ShloMosaic Idealize.ShloMosaic.TcCoe Idealize.SL.Sem
open Idealize.ShloMosaic.ValueIdx Cert.Taps Cert.Taps.Block
open Idealize.ShloMosaic.Pipeline (Dat)

variable {F : FTy → Type} [FloatOps F]
variable (m : (ℓ : Loc nD τ sig) → Buf (Elt F) ℓ) (ρ : Dev nD → PrngReg)

/-- The three index maps over the grid, decided at the 64 points: the input block and the result block have the same
    indices (n, g, 0, 0); the weight block's is (n, 0, 0, 0, 0); n, g < 8. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = win0_2.index t (0 : Fin 4) ∧ win0_1.index t (1 : Fin 5) = 0
    ∧ win0_1.index t (2 : Fin 5) = 0 ∧ win0_1.index t (3 : Fin 5) = 0 ∧ win0_1.index t (4 : Fin 5) = 0
    ∧ win0_2.index t (2 : Fin 4) = 0 ∧ win0_2.index t (3 : Fin 4) = 0
    ∧ win0_2.index t (0 : Fin 4) < 8 ∧ win0_2.index t (1 : Fin 4) < 8 :=
  (by decide +kernel : ∀ t : Fin grid0.N, _)

/-- Every pair (n, g) is some point's result block. -/
theorem idx_onto : ∀ (q0 q1 : Fin 8), ∃ t : Fin cfg0.N, win0_2.index t = ![q0.val, q1.val, 0, 0] :=
  (by decide +kernel : ∀ (q0 q1 : Fin 8), ∃ t : Fin grid0.N, win0_2.index t = ![q0.val, q1.val, 0, 0])

/-- The input block at point (n, g), read at (0, c, p, q), is the padded array at (n, 32·g + c, p, q). -/
theorem read_input (c : Dev nD) (t : Fin cfg0.N) (n g : Fin 8)
    (hn : win0_2.index t (0 : Fin 4) = n.val) (hg : win0_2.index t (1 : Fin 4) = g.val)
    (ch : Fin 32) (p q : Fin 98) :
    iblk m c 0 t (ix4 (0 : Fin 1) ch p q) = V m c main_v0 (ix4 n (⟨g.val * 32 + ch.val, by omega⟩ : Fin 256) p q) := by
  obtain ⟨e00, e01, e02, e03, e10, e11, e12, e13, e14, e22, e23, b0, b1⟩ := idx_facts t
  show V m c main_v0 (((cfg0.win 0).blk t).view.emb (ix4 (0 : Fin 1) ch p q)) = V m c main_v0 _
  refine congrArg (V m c main_v0) ?_
  funext a; apply Fin.ext
  match a with
  | ⟨0, _⟩ => show win0_0.index t (0 : Fin 4) * 1 + 1 * 0 = n.val; omega
  | ⟨1, _⟩ => show win0_0.index t (1 : Fin 4) * 32 + 1 * ch.val = g.val * 32 + ch.val; omega
  | ⟨2, _⟩ => show win0_0.index t (2 : Fin 4) * 98 + 1 * p.val = p.val; omega
  | ⟨3, _⟩ => show win0_0.index t (3 : Fin 4) * 98 + 1 * q.val = q.val; omega

/-- The weight block at point (n, g), read at (0, c, k, h, w), is the weight array where tap k reads it for the
    output position (n, 32·g + c, h, w): at (n, (32·g + c) mod 32, k, h, w). -/
theorem read_weights (c : Dev nD) (t : Fin cfg0.N) (n g : Fin 8)
    (hn : win0_2.index t (0 : Fin 4) = n.val) (hg : win0_2.index t (1 : Fin 4) = g.val)
    (k : Nat) (hk : k < 9) (ch : Fin 32) (h w : Fin 96) :
    iblk m c 1 t (ix5 (0 : Fin 1) ch (⟨k, hk⟩ : Fin 9) h w)
      = V m c main_arg1 (wgtAt k hk n (⟨g.val * 32 + ch.val, by omega⟩ : Fin 256) h w) := by
  obtain ⟨e00, e01, e02, e03, e10, e11, e12, e13, e14, e22, e23, b0, b1⟩ := idx_facts t
  show V m c main_arg1 (((cfg0.win 1).blk t).view.emb (ix5 (0 : Fin 1) ch (⟨k, hk⟩ : Fin 9) h w)) = V m c main_arg1 _
  refine congrArg (V m c main_arg1) ?_
  funext a; apply Fin.ext
  match a with
  | ⟨0, _⟩ => show win0_1.index t (0 : Fin 5) * 1 + 1 * 0 = n.val; omega
  | ⟨1, _⟩ => show win0_1.index t (1 : Fin 5) * 32 + 1 * ch.val = (g.val * 32 + ch.val) % 32; omega
  | ⟨2, _⟩ => show win0_1.index t (2 : Fin 5) * 9 + 1 * k = k; omega
  | ⟨3, _⟩ => show win0_1.index t (3 : Fin 5) * 96 + 1 * h.val = h.val; omega
  | ⟨4, _⟩ => show win0_1.index t (4 : Fin 5) * 96 + 1 * w.val = w.val; omega

/-- What the body leaves at (0, c, h, w) of the result block at point (n, g) is `G` at (n, 32·g + c, h, w). -/
theorem written_at (c : Dev nD) (t : Fin cfg0.N) (n g : Fin 8)
    (hn : win0_2.index t (0 : Fin 4) = n.val) (hg : win0_2.index t (1 : Fin 4) = g.val)
    (z : Fin 1) (ch : Fin 32) (h w : Fin 96) :
    out0_2 (iblk m c 0 t) (iblk m c 1 t) (ix4 z ch h w)
      = G (V m c main_v0) (V m c main_arg1) (ix4 n (⟨g.val * 32 + ch.val, by omega⟩ : Fin 256) h w) := by
  refine (block_apply (iblk m c 0 t) (iblk m c 1 t) z ch h w).trans ?_
  rw [read_input m c t n g hn hg ch ⟨h.val + 0, by omega⟩ ⟨w.val + 0, by omega⟩,
    read_input m c t n g hn hg ch ⟨h.val + 0, by omega⟩ ⟨w.val + 1, by omega⟩,
    read_input m c t n g hn hg ch ⟨h.val + 0, by omega⟩ ⟨w.val + 2, by omega⟩,
    read_input m c t n g hn hg ch ⟨h.val + 1, by omega⟩ ⟨w.val + 0, by omega⟩,
    read_input m c t n g hn hg ch ⟨h.val + 1, by omega⟩ ⟨w.val + 1, by omega⟩,
    read_input m c t n g hn hg ch ⟨h.val + 1, by omega⟩ ⟨w.val + 2, by omega⟩,
    read_input m c t n g hn hg ch ⟨h.val + 2, by omega⟩ ⟨w.val + 0, by omega⟩,
    read_input m c t n g hn hg ch ⟨h.val + 2, by omega⟩ ⟨w.val + 1, by omega⟩,
    read_input m c t n g hn hg ch ⟨h.val + 2, by omega⟩ ⟨w.val + 2, by omega⟩]
  rw [read_weights m c t n g hn hg 0 (by decide) ch h w,
    read_weights m c t n g hn hg 1 (by decide) ch h w,
    read_weights m c t n g hn hg 2 (by decide) ch h w,
    read_weights m c t n g hn hg 3 (by decide) ch h w,
    read_weights m c t n g hn hg 4 (by decide) ch h w,
    read_weights m c t n g hn hg 5 (by decide) ch h w,
    read_weights m c t n g hn hg 6 (by decide) ch h w,
    read_weights m c t n g hn hg 7 (by decide) ch h w,
    read_weights m c t n g hn hg 8 (by decide) ch h w]
  rfl

/-- The same at any index `y` of the block: `G` at the array index under `y`. -/
theorem written_idx (c : Dev nD) (t : Fin cfg0.N) (y : S1x32x96x96.Idx) :
    out0_2 (iblk m c 0 t) (iblk m c 1 t) y = G (V m c main_v0) (V m c main_arg1) (((cfg0.win 2).blk t).view.emb y) := by
  obtain ⟨e00, e01, e02, e03, e10, e11, e12, e13, e14, e22, e23, b0, b1⟩ := idx_facts t
  obtain ⟨z, ch, h, w, rfl⟩ : ∃ (z : Fin 1) (ch : Fin 32) (h w : Fin 96), y = ix4 z ch h w := ⟨y 0, y 1, y 2, y 3, eq_ix4 y⟩
  refine (written_at m c t ⟨win0_2.index t (0 : Fin 4), b0⟩ ⟨win0_2.index t (1 : Fin 4), b1⟩ rfl rfl z ch h w).trans ?_
  refine congrArg (G (V m c main_v0) (V m c main_arg1)) ?_
  have hz : z.val < 1 := z.isLt
  funext a; apply Fin.ext
  match a with
  | ⟨0, _⟩ => show win0_2.index t (0 : Fin 4) = win0_2.index t (0 : Fin 4) * 1 + 1 * z.val; omega
  | ⟨1, _⟩ => show win0_2.index t (1 : Fin 4) * 32 + ch.val = win0_2.index t (1 : Fin 4) * 32 + 1 * ch.val; omega
  | ⟨2, _⟩ => show h.val = win0_2.index t (2 : Fin 4) * 96 + 1 * h.val; omega
  | ⟨3, _⟩ => show w.val = win0_2.index t (3 : Fin 4) * 96 + 1 * w.val; omega

/-- WHAT POINT `t` WRITES BACK is block `t` of `G` of the padded array and the weights as the launch finds them. -/
theorem flushed_eq (c : Dev nD) (t : Fin cfg0.N) :
    (dats m 0 c).flushed 2 t = ((cfg0.win 2).blk t).view.read (Elt F) (G (V m c main_v0) (V m c main_arg1)) := by
  show (cfg0.win 2).cut (grid0.coords t) ((dats m 0 c).after 2 t) = _
  rw [after0_2]
  funext y
  exact written_idx m c t y

/-- An index of the result array is in point `t`'s block iff each coordinate is in the block's range on its axis. -/
theorem mem_blk (t : Fin cfg0.N) (i : S8x256x96x96.Idx) :
    i ∈ ((cfg0.win 2).blk t).view.set ↔ ∀ a : Fin 4, win0_2.index t a * S1x32x96x96.size a ≤ (i a).val ∧ (i a).val < win0_2.index t a * S1x32x96x96.size a + S1x32x96x96.size a := by
  show i ∈ ((View.whole main_v1).slice (win0_2.rect t)).set ↔ _
  rw [View.set_slice_whole, Rect.mem_set_unit]
  exact Iff.rfl

/-- The 64 result blocks tile the array: (n, ch, h, w) is in the block of the point (n, ch / 32). -/
theorem cover (i : S8x256x96x96.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 96 := (i 2).isLt
  have hi3 : (i 3).val < 96 := (i 3).isLt
  obtain ⟨t, ht⟩ := idx_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 96 ≤ (i 2).val ∧ (i 2).val < win0_2.index t (2 : Fin 4) * 96 + 96; omega
  | ⟨3, _⟩ => show win0_2.index t (3 : Fin 4) * 96 ≤ (i 3).val ∧ (i 3).val < win0_2.index t (3 : Fin 4) * 96 + 96; omega

/-- THE RESULT ARRAY after the run is `G` of the padded array and the weights as the launch finds them. -/
theorem final (c : Dev nD) : (dats m 0 c).arrAt 2 cfg0.N = G (V m c main_v0) (V m c main_arg1) :=
  (dats m 0 c).arrAt_eq_of_cover 2 (G (V m c main_v0) (V m c main_arg1)) (fun t _ => flushed_eq m c t) cover

/-- The padded array the launch finds: the first argument padded by one on each side of its last two axes with the
    integer zero converted to a float (the two host operations before the launch). -/
theorem padded_eq (c : Dev nD) :
    (V m c main_v0 : S8x256x98x98.Idx → Elt F .f32)
      = pad S8x256x98x98 ![0, 0, 1, 1] ![0, 0, 1, 1] ![0, 0, 0, 0] (m ((c : Thread nD τ).loc main_arg0))
          (sitofp .f32 (constantI S_ 32 0#32)) pads_S8x256x96x96_S8x256x98x98_000_000_110_110 h_S_ := by
  dsimp only [V]
  simp only [hostOps0, hostOps0_1, List.flatten_cons, List.flatten_nil, List.append_nil, List.cons_append, List.nil_append]
  after_results
  rfl

/-- THE KERNEL'S RUN: every weakly fair execution ends with the result array at `G` of the padded first argument and the
    second argument, the arguments unchanged. -/
theorem run : θ_run defs (onTc (τ := τ) (main (F := F))) ⟨m, fun _ => 0, ρ⟩ fun r => ∀ c : Dev nD,
      r.2.mem ((c : Thread nD τ).loc main_v1)
        = G (pad S8x256x98x98 ![0, 0, 1, 1] ![0, 0, 1, 1] ![0, 0, 0, 0] (m ((c : Thread nD τ).loc main_arg0))
              (sitofp .f32 (constantI S_ 32 0#32)) pads_S8x256x96x96_S8x256x98x98_000_000_110_110 h_S_)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [← padded_eq m c, ← V_main_arg1 m c]; exact ((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.Taps.Kernel

end
-- ==== Proof.lean ====
/-
  A 3×3 per-position weighted sum with grouped channels, computed by a pipelined kernel and by plain array operations.

  Both programs first pad the input x : [8, 256, 96, 96] with one row and one column of zeros on each side of its last two
  axes, giving xp : [8, 256, 98, 98], and then compute, for every (n, ch, h, w),
      out[n, ch, h, w] = ((0 + xp[n, ch, h+0, w+0]·wt[n, ch mod 32, 0, h, w]) + … ) + xp[n, ch, h+2, w+2]·wt[n, ch mod 32, 8, h, w],
  the nine taps k = 3a + b of the window added to zero in the order k = 0, …, 8 (`Taps.G`, Proof/Taps.lean).

  The reference does it on whole arrays: nine slices of xp regrouped as [8, 8, 32, 96, 96], nine unit slices of the weights
  broadcast over the group axis, nine pointwise products and sums, a final regrouping (Proof/TapsReference.lean reads
  this back, index by index). The kernel does it block by block on an 8 × 8 grid — one batch entry and one group of 32
  channels per point — with the same nine windows, products and sums inside each block (Proof/TapsBlock.lean), and its
  64 blocks tile the result (Proof/TapsKernel.lean). The two programs perform the same products and the same additions
  in the same order on the same operands, so the results are equal on all extended reals: no algebraic law and no
  finiteness of the inputs is used. The padded array is the same term on both sides and is never opened.
  The idealized kernel is the kernel's own text read over the extended reals (no rewrite was applied), and the three
  frames are the generated ones.
-/
import proofs.«175276_j38431367364745_1_alg».proof.Defs
import proofs.«175276_j38431367364745_1_alg».proof.Proof.Gen.Kernel
import proofs.«175276_j38431367364745_1_alg».proof.Proof.Gen.Kernel.Skeleton
import proofs.«175276_j38431367364745_1_alg».proof.Proof.Gen.Kernel.Launch
import proofs.«175276_j38431367364745_1_alg».proof.Proof.Gen.Kernel.Points
import proofs.«175276_j38431367364745_1_alg».proof.Proof.Gen.Kernel.Frame
import proofs.«175276_j38431367364745_1_alg».proof.Proof.Gen.KernelIdeal
import proofs.«175276_j38431367364745_1_alg».proof.Proof.Gen.KernelIdeal.Skeleton
import proofs.«175276_j38431367364745_1_alg».proof.Proof.Gen.KernelIdeal.Launch
import proofs.«175276_j38431367364745_1_alg».proof.Proof.Gen.KernelIdeal.Points
import proofs.«175276_j38431367364745_1_alg».proof.Proof.Gen.KernelIdeal.Frame
import proofs.«175276_j38431367364745_1_alg».proof.Proof.Gen.ReferenceIdeal
import proofs.«175276_j38431367364745_1_alg».proof.Proof.Gen.ReferenceIdeal.Run
import proofs.«175276_j38431367364745_1_alg».proof.Proof.Gen.ReferenceIdeal.Read
import proofs.«175276_j38431367364745_1_alg».proof.Proof.Gen.Pre_finite_inputs
import proofs.«175276_j38431367364745_1_alg».proof.Proof.Taps
import proofs.«175276_j38431367364745_1_alg».proof.Proof.TapsReference
import proofs.«175276_j38431367364745_1_alg».proof.Proof.TapsKernel
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the arguments both programs end with the result array at `G` of the padded first argument
    and the second argument: the kernel by its blocks (`Taps.Kernel.run`), the reference by reading its operations back
    (`Taps.Reference.result_eq`). -/
theorem algebraic : Cert.algebraic_KernelIdeal_ReferenceIdeal := by
  intro m ρ m' ρ' _ hagree
  refine ⟨_, Cert.Taps.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.Taps.Reference.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
